-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S8x16 : Shape := ⟨2, ![8, 16]⟩
abbrev S16 : Shape := ⟨1, ![16]⟩
abbrev S16x16 : Shape := ⟨2, ![16, 16]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16x16 .f32) (main_arg6 : FVec F S16x16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x8 .f32) (main_arg1 : IVec S2x3200000 32) (main_arg2 : FVec F S8x16 .f32) (main_arg3 : FVec F S8x16 .f32) (main_arg4 : FVec F S16 .f32) (main_arg5 : FVec F S16x16 .f32) (main_arg6 : FVec F S16x16 .f32) (main_arg7 : FVec F S16 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x16 .f32 := Host.absf main_arg2
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S8x16 .f32 := Host.absf main_arg3
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x8 : Shape := ⟨2, ![100000, 8]⟩
abbrev S2x3200000 : Shape := ⟨2, ![2, 3200000]⟩
abbrev S8x16 : Shape := ⟨2, ![8, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S10000x8 : Shape := ⟨2, ![10000, 8]⟩
abbrev S10000x16 : Shape := ⟨2, ![10000, 16]⟩
abbrev S3200000x16 : Shape := ⟨2, ![3200000, 16]⟩
abbrev S1x16 : Shape := ⟨2, ![1, 16]⟩

abbrev nBuf : Space → Nat
  | .hbm => 90
  | .vmem => 30
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S8x16, .f32⟩
  | .hbm, ⟨3, _⟩ => ⟨S8x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S8x16, .bf16⟩
  | .hbm, ⟨49, _⟩ => ⟨S8x16, .bf16⟩
  | .hbm, ⟨50, _⟩ => ⟨S100000x16, .f32⟩
  | .hbm, ⟨51, _⟩ => ⟨S100000x16, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x16, .f32⟩
  | .hbm, ⟨61, _⟩ => ⟨S3200000x1, .f32⟩
  | .hbm, ⟨62, _⟩ => ⟨S3200000x16, .f32⟩
  | .hbm, ⟨63, _⟩ => ⟨S3200000x16, .f32⟩
  | .hbm, ⟨64, _⟩ => ⟨S_, .f32⟩
  | .hbm, ⟨65, _⟩ => ⟨S100000x16, .f32⟩
  | .hbm, ⟨66, _⟩ => ⟨S3200000x1, .i32⟩
  | .hbm, ⟨67, _⟩ => ⟨S100000x16, .f32⟩
  | .hbm, ⟨68, _⟩ => ⟨S100000x16, .f32⟩
  | .hbm, ⟨69, _⟩ => ⟨S16x16, .bf16⟩
  | .hbm, ⟨70, _⟩ => ⟨S16x16, .bf16⟩
  | .hbm, ⟨71, _⟩ => ⟨S100000x16, .f32⟩
  | .hbm, ⟨72, _⟩ => ⟨S100000x16, .f32⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S3200000x16, .f32⟩
  | .hbm, ⟨82, _⟩ => ⟨S3200000x1, .f32⟩
  | .hbm, ⟨83, _⟩ => ⟨S3200000x16, .f32⟩
  | .hbm, ⟨84, _⟩ => ⟨S3200000x16, .f32⟩
  | .hbm, ⟨85, _⟩ => ⟨S_, .f32⟩
  | .hbm, ⟨86, _⟩ => ⟨S100000x16, .f32⟩
  | .hbm, ⟨87, _⟩ => ⟨S3200000x1, .i32⟩
  | .hbm, ⟨88, _⟩ => ⟨S100000x16, .f32⟩
  | .hbm, ⟨89, _⟩ => ⟨S100000x16, .f32⟩
  | .local _ .vmem, ⟨0, _⟩ => ⟨S10000x8, .f32⟩
  | .local _ .vmem, ⟨1, _⟩ => ⟨S10000x8, .f32⟩
  | .local _ .vmem, ⟨2, _⟩ => ⟨S8x16, .bf16⟩
  | .local _ .vmem, ⟨3, _⟩ => ⟨S8x16, .bf16⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S16x16, .bf16⟩
  | .local _ .vmem, ⟨18, _⟩ => ⟨S16x16, .bf16⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S16, .f32⟩
  | .local _ .vmem, ⟨28, _⟩ => ⟨S10000x16, .f32⟩
  | .local _ .vmem, ⟨29, _⟩ => ⟨S10000x16, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bitsLt_bf16_f32 : FTy.bits .bf16 < FTy.bits .f32
  inb_S10000x8_S10000x8_0_0 : ∀ a, (![0, 0] : Fin 2 → Nat) a + S10000x8.size a ≤ S10000x8.size a
  h_S10000x8 : 0 < S10000x8.numel
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  shapeCasts_S10000x16_S10000x16 : S10000x16.ShapeCasts S10000x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x8_S8x16_S10000x16_1_0_0_1_n_n_wf : DotDims.WF S10000x8 S8x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S8x16.size a
  hwx0_1 : ∀ i : grid0.Coords, EltTy.bits .bf16 = 32 ∨ (Rect.block (s := S8x16) S8x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S8x16.size a
  hwx0_2 : ∀ i : grid0.Coords, EltTy.bits .bf16 = 32 ∨ (Rect.block (s := S8x16) S8x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x16.size a ≤ S100000x16.size a
  hwx0_4 : ∀ i : grid0.Coords, EltTy.bits .f32 = 32 ∨ (Rect.block (s := S100000x16) S10000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .bf16 = 32 ∨ (Rect.block (s := S16x16) S16x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .bf16 = 32 ∨ (Rect.block (s := S16x16) S16x16.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x16.size a ≤ S100000x16.size a
  hwx2_4 : ∀ i : grid2.Coords, EltTy.bits .f32 = 32 ∨ (Rect.block (s := S100000x16) S10000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16.size a ≤ S16.size a
  hwx3_2 : ∀ i : grid3.Coords, EltTy.bits .f32 = 32 ∨ (Rect.block (s := S16) S16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x8_S8x16_S10000x16_1_0_0_1_n_n : DotDims S10000x8 S8x16 S10000x16 where
  lhsContracting := [1]
  rhsContracting := [0]
  lhsNonContracting := [0]
  rhsNonContracting := [1]
  lhsBatch := []
  rhsBatch := []
  wf := dot_S10000x8_S8x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S8x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S10000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S10000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_1) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48_0) S10000x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48_1) S10000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48_1) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S8x16 : Shape := ⟨2, ![8, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S8x16, .f32⟩
  | .hbm, ⟨3, _⟩ => ⟨S8x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S100000x16, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x16, .f32⟩
  | .hbm, ⟨58, _⟩ => ⟨S3200000x1, .f32⟩
  | .hbm, ⟨59, _⟩ => ⟨S3200000x16, .f32⟩
  | .hbm, ⟨60, _⟩ => ⟨S3200000x16, .f32⟩
  | .hbm, ⟨61, _⟩ => ⟨S_, .f32⟩
  | .hbm, ⟨62, _⟩ => ⟨S100000x16, .f32⟩
  | .hbm, ⟨63, _⟩ => ⟨S3200000x1, .i32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S100000x16, .f32⟩
  | .hbm, ⟨72, _⟩ => ⟨S100000x16, .f32⟩
  | .hbm, ⟨73, _⟩ => ⟨S100000x16, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000x16, .f32⟩
  | .hbm, ⟨83, _⟩ => ⟨S3200000x1, .f32⟩
  | .hbm, ⟨84, _⟩ => ⟨S3200000x16, .f32⟩
  | .hbm, ⟨85, _⟩ => ⟨S3200000x16, .f32⟩
  | .hbm, ⟨86, _⟩ => ⟨S_, .f32⟩
  | .hbm, ⟨87, _⟩ => ⟨S100000x16, .f32⟩
  | .hbm, ⟨88, _⟩ => ⟨S3200000x1, .i32⟩
  | .hbm, ⟨89, _⟩ => ⟨S100000x16, .f32⟩
  | .hbm, ⟨90, _⟩ => ⟨S100000x16, .f32⟩
  | .hbm, ⟨91, _⟩ => ⟨S100000x16, .f32⟩
  | .hbm, ⟨92, _⟩ => ⟨S1x16, .f32⟩
  | .hbm, ⟨93, _⟩ => ⟨S100000x16, .f32⟩
  | .hbm, ⟨94, _⟩ => ⟨S100000x16, .f32⟩
  | .hbm, ⟨95, _⟩ => ⟨S_, .f32⟩
  | .hbm, ⟨96, _⟩ => ⟨S100000x16, .f32⟩
  | .hbm, ⟨97, _⟩ => ⟨S100000x16, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call2_cst : Ref sig .tc := ⟨.hbm, 95, rfl⟩
abbrev main_call2_v0 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel's run with its result named.

  The program is ten segments: stretches of host operations and four kernel regions, in turn. Its run ends with every
  buffer at the contents the last boundary of that fold gives it. Read at the result buffer this names the program's
  result, beside the eight arguments, which no segment writes.
-/
import proofs.«176683_j14259291423267_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v62) = W10 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v62 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.NamedRun

end
-- ==== Proof.HostStretches.lean ====
/-
  The host operations between the kernel regions, one stretch at a time.

  Each stretch of the idealized kernel's program is read at the buffers later segments use, over any contents `Wv` of
  the buffers when the stretch starts. Both programs derive the edge lists and the edge weights from the integer
  argument by the same operations (slices and reshapes; a scatter-add of ones for the in-degree; the degree's inverse
  square root where it is positive; gathers at both ends of each edge; a product), and aggregate a layer's messages by
  the same gather, scaling and scatter-add. So what a stretch leaves in a buffer is the reference's stage of the same
  name, once its inputs are: the comparison is of the two programs' operation trees, with no arithmetic in it.
-/
import proofs.«176683_j14259291423267_1_alg».proof.Proof.Gen.KernelIdeal.Launch
import proofs.«176683_j14259291423267_1_alg».proof.Proof.ReadP
import Idealize.ShloMosaic.Lib.StableHlo.Run

set_option maxRecDepth 16384

noncomputable section

namespace Cert.KernelIdeal.HostStretches

open Cert.KernelIdeal Cert.KernelIdeal.Gen
open Idealize.ShloMosaic Idealize.ShloMosaic.TcCoe Idealize.SL.Sem Idealize.ShloMosaic.StableHlo
open Cert.ReferenceIdeal.ReadP

variable (Wv : Valuation τ sig (Elt Ideal))

/-! ## The first stretch: edge lists, in-degree, its inverse square root -/

theorem first_v1 : StableHlo.after hostOps0 Wv (Proc.devRef .tc main_v1) = val_main_v1 (F := Ideal) (Wv (Proc.devRef .tc main_arg1)) := by
  simp only [hostOps0]
  after_results_simp <;> rfl
theorem first_v3 : StableHlo.after hostOps0 Wv (Proc.devRef .tc main_v3) = val_main_v3 (F := Ideal) (Wv (Proc.devRef .tc main_arg1)) := by
  simp only [hostOps0]
  after_results_simp <;> rfl
theorem first_v9 : StableHlo.after hostOps0 Wv (Proc.devRef .tc main_v9) = val_main_v9 (F := Ideal) (Wv (Proc.devRef .tc main_arg1)) := by
  simp only [hostOps0]
  after_results_simp <;> rfl
theorem first_v12 : StableHlo.after hostOps0 Wv (Proc.devRef .tc main_v12) = val_main_v12 (F := Ideal) (Wv (Proc.devRef .tc main_arg1)) := by
  simp only [hostOps0]
  after_results_simp <;> rfl
theorem first_cst_3 : StableHlo.after hostOps0 Wv (Proc.devRef .tc main_cst_3) = val_main_cst_3 (F := Ideal) := by
  simp only [hostOps0]
  after_results_simp <;> rfl
theorem first_keeps_arg0 : StableHlo.after hostOps0 Wv (Proc.devRef .tc main_arg0) = Wv (Proc.devRef .tc main_arg0) := by
  simp only [hostOps0]
  after_results_simp
theorem first_keeps_arg2 : StableHlo.after hostOps0 Wv (Proc.devRef .tc main_arg2) = Wv (Proc.devRef .tc main_arg2) := by
  simp only [hostOps0]
  after_results_simp
theorem first_keeps_arg3 : StableHlo.after hostOps0 Wv (Proc.devRef .tc main_arg3) = Wv (Proc.devRef .tc main_arg3) := by
  simp only [hostOps0]
  after_results_simp
theorem first_keeps_arg4 : StableHlo.after hostOps0 Wv (Proc.devRef .tc main_arg4) = Wv (Proc.devRef .tc main_arg4) := by
  simp only [hostOps0]
  after_results_simp
theorem first_keeps_arg5 : StableHlo.after hostOps0 Wv (Proc.devRef .tc main_arg5) = Wv (Proc.devRef .tc main_arg5) := by
  simp only [hostOps0]
  after_results_simp
theorem first_keeps_arg6 : StableHlo.after hostOps0 Wv (Proc.devRef .tc main_arg6) = Wv (Proc.devRef .tc main_arg6) := by
  simp only [hostOps0]
  after_results_simp
theorem first_keeps_arg7 : StableHlo.after hostOps0 Wv (Proc.devRef .tc main_arg7) = Wv (Proc.devRef .tc main_arg7) := by
  simp only [hostOps0]
  after_results_simp

/-! ## The outlined selection: the inverse square root where the degree is positive, zero elsewhere -/

/-- Over any contents: the selection of the second operand where the first is set, of the broadcast third elsewhere. -/
theorem where_v13_raw : StableHlo.after hostOps0_1 Wv (Proc.devRef .tc main_v13)
    = select (Wv (Proc.devRef .tc main_v9)) (Wv (Proc.devRef .tc main_v12)) (broadcastInDim S100000 ![] bcast_S_S100000 (id (Wv (Proc.devRef .tc main_cst_3)))) := by
  simp only [hostOps0_1]
  after_results_simp <;> rfl

theorem where_v13 (x1 : (⟨S2x3200000, .i32⟩ : BufTy).Contents (Elt Ideal))
    (h9 : Wv (Proc.devRef .tc main_v9) = val_main_v9 (F := Ideal) x1) (h12 : Wv (Proc.devRef .tc main_v12) = val_main_v12 (F := Ideal) x1)
    (hc : Wv (Proc.devRef .tc main_cst_3) = val_main_cst_3 (F := Ideal)) :
    StableHlo.after hostOps0_1 Wv (Proc.devRef .tc main_v13) = val_main_v13 (F := Ideal) x1 := by
  rw [where_v13_raw, h9, h12, hc]
  rfl
theorem where_keeps_v1 : StableHlo.after hostOps0_1 Wv (Proc.devRef .tc main_v1) = Wv (Proc.devRef .tc main_v1) := by
  simp only [hostOps0_1]
  after_results_simp
theorem where_keeps_v3 : StableHlo.after hostOps0_1 Wv (Proc.devRef .tc main_v3) = Wv (Proc.devRef .tc main_v3) := by
  simp only [hostOps0_1]
  after_results_simp
theorem where_keeps_arg0 : StableHlo.after hostOps0_1 Wv (Proc.devRef .tc main_arg0) = Wv (Proc.devRef .tc main_arg0) := by
  simp only [hostOps0_1]
  after_results_simp
theorem where_keeps_arg2 : StableHlo.after hostOps0_1 Wv (Proc.devRef .tc main_arg2) = Wv (Proc.devRef .tc main_arg2) := by
  simp only [hostOps0_1]
  after_results_simp
theorem where_keeps_arg3 : StableHlo.after hostOps0_1 Wv (Proc.devRef .tc main_arg3) = Wv (Proc.devRef .tc main_arg3) := by
  simp only [hostOps0_1]
  after_results_simp
theorem where_keeps_arg4 : StableHlo.after hostOps0_1 Wv (Proc.devRef .tc main_arg4) = Wv (Proc.devRef .tc main_arg4) := by
  simp only [hostOps0_1]
  after_results_simp
theorem where_keeps_arg5 : StableHlo.after hostOps0_1 Wv (Proc.devRef .tc main_arg5) = Wv (Proc.devRef .tc main_arg5) := by
  simp only [hostOps0_1]
  after_results_simp
theorem where_keeps_arg6 : StableHlo.after hostOps0_1 Wv (Proc.devRef .tc main_arg6) = Wv (Proc.devRef .tc main_arg6) := by
  simp only [hostOps0_1]
  after_results_simp
theorem where_keeps_arg7 : StableHlo.after hostOps0_1 Wv (Proc.devRef .tc main_arg7) = Wv (Proc.devRef .tc main_arg7) := by
  simp only [hostOps0_1]
  after_results_simp

/-! ## The third stretch: the edge weights, and the first layer's weight matrices in the kernel's format -/

theorem third_v28 (x1 : (⟨S2x3200000, .i32⟩ : BufTy).Contents (Elt Ideal))
    (h13 : Wv (Proc.devRef .tc main_v13) = val_main_v13 (F := Ideal) x1) (h1 : Wv (Proc.devRef .tc main_v1) = val_main_v1 (F := Ideal) x1)
    (h3 : Wv (Proc.devRef .tc main_v3) = val_main_v3 (F := Ideal) x1) :
    StableHlo.after hostOps0_2 Wv (Proc.devRef .tc main_v28) = val_main_v28 (F := Ideal) x1 := by
  simp only [hostOps0_2]
  after_results_simp
  rw [h13, h1, h3]
  rfl
/-- The change of format is the identity on the extended reals. -/
theorem third_v29 : (StableHlo.after hostOps0_2 Wv (Proc.devRef .tc main_v29) : S8x16.Idx → EReal) = (Wv (Proc.devRef .tc main_arg2) : S8x16.Idx → EReal) := by
  simp only [hostOps0_2]
  after_results_simp <;> rfl
theorem third_v30 : (StableHlo.after hostOps0_2 Wv (Proc.devRef .tc main_v30) : S8x16.Idx → EReal) = (Wv (Proc.devRef .tc main_arg3) : S8x16.Idx → EReal) := by
  simp only [hostOps0_2]
  after_results_simp <;> rfl
theorem third_keeps_v1 : StableHlo.after hostOps0_2 Wv (Proc.devRef .tc main_v1) = Wv (Proc.devRef .tc main_v1) := by
  simp only [hostOps0_2]
  after_results_simp
theorem third_keeps_v3 : StableHlo.after hostOps0_2 Wv (Proc.devRef .tc main_v3) = Wv (Proc.devRef .tc main_v3) := by
  simp only [hostOps0_2]
  after_results_simp
theorem third_keeps_arg0 : StableHlo.after hostOps0_2 Wv (Proc.devRef .tc main_arg0) = Wv (Proc.devRef .tc main_arg0) := by
  simp only [hostOps0_2]
  after_results_simp
theorem third_keeps_arg4 : StableHlo.after hostOps0_2 Wv (Proc.devRef .tc main_arg4) = Wv (Proc.devRef .tc main_arg4) := by
  simp only [hostOps0_2]
  after_results_simp
theorem third_keeps_arg5 : StableHlo.after hostOps0_2 Wv (Proc.devRef .tc main_arg5) = Wv (Proc.devRef .tc main_arg5) := by
  simp only [hostOps0_2]
  after_results_simp
theorem third_keeps_arg6 : StableHlo.after hostOps0_2 Wv (Proc.devRef .tc main_arg6) = Wv (Proc.devRef .tc main_arg6) := by
  simp only [hostOps0_2]
  after_results_simp
theorem third_keeps_arg7 : StableHlo.after hostOps0_2 Wv (Proc.devRef .tc main_arg7) = Wv (Proc.devRef .tc main_arg7) := by
  simp only [hostOps0_2]
  after_results_simp

/-! ## Layer 1's aggregation: gather the projected features along the edges, scale, scatter-add to the targets -/

theorem agg1_v44 (x0 : (⟨S100000x8, .f32⟩ : BufTy).Contents (Elt Ideal)) (x1 : (⟨S2x3200000, .i32⟩ : BufTy).Contents (Elt Ideal))
    (x2 : (⟨S8x16, .f32⟩ : BufTy).Contents (Elt Ideal))
    (hp : Wv (Proc.devRef .tc main_v31_0) = val_main_v29 (F := Ideal) x0 x2) (h1 : Wv (Proc.devRef .tc main_v1) = val_main_v1 (F := Ideal) x1)
    (h3 : Wv (Proc.devRef .tc main_v3) = val_main_v3 (F := Ideal) x1) (h28 : Wv (Proc.devRef .tc main_v28) = val_main_v28 (F := Ideal) x1) :
    StableHlo.after hostOps1 Wv (Proc.devRef .tc main_v44) = val_main_v42 (F := Ideal) x0 x1 x2 := by
  simp only [hostOps1]
  after_results_simp
  rw [hp, h1, h3, h28]
  rfl
theorem agg1_keeps_v31_1 : StableHlo.after hostOps1 Wv (Proc.devRef .tc main_v31_1) = Wv (Proc.devRef .tc main_v31_1) := by
  simp only [hostOps1]
  after_results_simp
theorem agg1_keeps_arg4 : StableHlo.after hostOps1 Wv (Proc.devRef .tc main_arg4) = Wv (Proc.devRef .tc main_arg4) := by
  simp only [hostOps1]
  after_results_simp
theorem agg1_keeps_v1 : StableHlo.after hostOps1 Wv (Proc.devRef .tc main_v1) = Wv (Proc.devRef .tc main_v1) := by
  simp only [hostOps1]
  after_results_simp
theorem agg1_keeps_v3 : StableHlo.after hostOps1 Wv (Proc.devRef .tc main_v3) = Wv (Proc.devRef .tc main_v3) := by
  simp only [hostOps1]
  after_results_simp
theorem agg1_keeps_v28 : StableHlo.after hostOps1 Wv (Proc.devRef .tc main_v28) = Wv (Proc.devRef .tc main_v28) := by
  simp only [hostOps1]
  after_results_simp
theorem agg1_keeps_arg5 : StableHlo.after hostOps1 Wv (Proc.devRef .tc main_arg5) = Wv (Proc.devRef .tc main_arg5) := by
  simp only [hostOps1]
  after_results_simp
theorem agg1_keeps_arg6 : StableHlo.after hostOps1 Wv (Proc.devRef .tc main_arg6) = Wv (Proc.devRef .tc main_arg6) := by
  simp only [hostOps1]
  after_results_simp
theorem agg1_keeps_arg7 : StableHlo.after hostOps1 Wv (Proc.devRef .tc main_arg7) = Wv (Proc.devRef .tc main_arg7) := by
  simp only [hostOps1]
  after_results_simp

/-! ## Layer 2's weight matrices in the kernel's format -/

theorem fmt_v46 : (StableHlo.after hostOps2 Wv (Proc.devRef .tc main_v46) : S16x16.Idx → EReal) = (Wv (Proc.devRef .tc main_arg5) : S16x16.Idx → EReal) := by
  simp only [hostOps2]
  after_results_simp <;> rfl
theorem fmt_v47 : (StableHlo.after hostOps2 Wv (Proc.devRef .tc main_v47) : S16x16.Idx → EReal) = (Wv (Proc.devRef .tc main_arg6) : S16x16.Idx → EReal) := by
  simp only [hostOps2]
  after_results_simp <;> rfl
theorem fmt_keeps_v45 : StableHlo.after hostOps2 Wv (Proc.devRef .tc main_v45) = Wv (Proc.devRef .tc main_v45) := by
  simp only [hostOps2]
  after_results_simp
theorem fmt_keeps_v1 : StableHlo.after hostOps2 Wv (Proc.devRef .tc main_v1) = Wv (Proc.devRef .tc main_v1) := by
  simp only [hostOps2]
  after_results_simp
theorem fmt_keeps_v3 : StableHlo.after hostOps2 Wv (Proc.devRef .tc main_v3) = Wv (Proc.devRef .tc main_v3) := by
  simp only [hostOps2]
  after_results_simp
theorem fmt_keeps_v28 : StableHlo.after hostOps2 Wv (Proc.devRef .tc main_v28) = Wv (Proc.devRef .tc main_v28) := by
  simp only [hostOps2]
  after_results_simp
theorem fmt_keeps_arg7 : StableHlo.after hostOps2 Wv (Proc.devRef .tc main_arg7) = Wv (Proc.devRef .tc main_arg7) := by
  simp only [hostOps2]
  after_results_simp

/-! ## Layer 2's aggregation -/

theorem agg2_v61 (x0 : (⟨S100000x8, .f32⟩ : BufTy).Contents (Elt Ideal)) (x1 : (⟨S2x3200000, .i32⟩ : BufTy).Contents (Elt Ideal))
    (x2 x3 : (⟨S8x16, .f32⟩ : BufTy).Contents (Elt Ideal)) (x4 : (⟨S16, .f32⟩ : BufTy).Contents (Elt Ideal))
    (x5 : (⟨S16x16, .f32⟩ : BufTy).Contents (Elt Ideal))
    (hp : Wv (Proc.devRef .tc main_v48_0) = val_main_v49 (F := Ideal) x0 x1 x2 x3 x4 x5) (h1 : Wv (Proc.devRef .tc main_v1) = val_main_v1 (F := Ideal) x1)
    (h3 : Wv (Proc.devRef .tc main_v3) = val_main_v3 (F := Ideal) x1) (h28 : Wv (Proc.devRef .tc main_v28) = val_main_v28 (F := Ideal) x1) :
    StableHlo.after hostOps3 Wv (Proc.devRef .tc main_v61) = val_main_v62 (F := Ideal) x0 x1 x2 x3 x4 x5 := by
  simp only [hostOps3]
  after_results_simp
  rw [hp, h1, h3, h28]
  rfl
theorem agg2_keeps_v48_1 : StableHlo.after hostOps3 Wv (Proc.devRef .tc main_v48_1) = Wv (Proc.devRef .tc main_v48_1) := by
  simp only [hostOps3]
  after_results_simp
theorem agg2_keeps_arg7 : StableHlo.after hostOps3 Wv (Proc.devRef .tc main_arg7) = Wv (Proc.devRef .tc main_arg7) := by
  simp only [hostOps3]
  after_results_simp

end Cert.KernelIdeal.HostStretches

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Project0.lean ====
/-
  Region 0 of the idealized kernel: two products of the node features with weight matrices, tile by tile.

  Each grid point reads a tile of 10000 rows of the [100000, 8] feature array and the two whole [8, 16] weight matrices,
  and writes the tile's product with each matrix to the same rows of the two outputs. On the extended reals the change
  of the features' format is the identity and a product accumulated into zero is the plain sum over the 8 columns, so
  after the region each output array holds at (r, f) the inner product of row r of the features with column f of its
  matrix: the whole [100000, 8] by [8, 16] product, whatever the tiling.
-/
import proofs.«176683_j14259291423267_1_alg».proof.Proof.Gen.KernelIdeal.Frame
import proofs.«176683_j14259291423267_1_alg».proof.Proof.LibInnerProducts
import Idealize.ShloMosaic.Lib.Pipeline.Value
import Idealize.ShloMosaic.Lib.ValueIdx

set_option maxRecDepth 16384

noncomputable section

namespace Cert.KernelIdeal.Project0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_offsets2 : (![0, 0] : Fin 2 → Nat) = fun _ => 0 := funext fun a => by fin_cases a <;> rfl

/-- Features times a weight matrix on whole arrays: entry (r, f) is the sum over d of `h (r, d) · w (d, f)`. -/
def rowsTimes (h : S100000x8.Idx → EReal) (w : S8x16.Idx → EReal) : S100000x16.Idx → EReal :=
  fun i => ∑ d : Fin 8, h (ix2 (i 0) d) * w (ix2 d (i 1))

/-- The first stored value at row `p`, column `f` of a tile: the inner product of the tile's row with the matrix's column. -/
theorem tile_apply_a (x : Vec Ideal S10000x8 .f32) (w : Vec Ideal S8x16 .bf16) (p : Fin 10000) (f : Fin 16) :
    k0_pay2 (F := Ideal) x w (ix2 p f) = ∑ d : Fin 8, x (ix2 p d) * w (ix2 d f) := by
  unfold k0_pay2 k0_pay1
  simp only [shapeCast_self]
  refine (InnerProducts.matmul_zero_apply (φ₁ := .bf16) (φ₂ := .bf16) dot_S10000x8_S8x16_S10000x16_1_0_0_1_n_n rfl none _ w p f).trans ?_
  rfl

/-- The second stored value, the same with the other matrix. -/
theorem tile_apply_b (x : Vec Ideal S10000x8 .f32) (w : Vec Ideal S8x16 .bf16) (p : Fin 10000) (f : Fin 16) :
    k0_pay3 (F := Ideal) x w (ix2 p f) = ∑ d : Fin 8, x (ix2 p d) * w (ix2 d f) := by
  unfold k0_pay3 k0_pay1
  simp only [shapeCast_self]
  refine (InnerProducts.matmul_zero_apply (φ₁ := .bf16) (φ₂ := .bf16) dot_S10000x8_S8x16_S10000x16_1_0_0_1_n_n rfl none _ w p f).trans ?_
  rfl

/-- The grid's index maps, decided over the ten points: the feature window and the two outputs sit at tile `t`, the two
    weight windows at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to output 1 is tile `t` of the features times matrix 1. -/
theorem flushed_eq_a (c : Dev nD) (t : Fin cfg0.N) :
    (dat0 V c).flushed 3 t = ((cfg0.win 3).blk t).view.read (Elt Ideal)
      (rowsTimes (V c main_arg0) (V c main_v29)) := by
  show (cfg0.win 3).cut (grid0.coords t) ((dat0 V c).after 3 t) = _
  rw [after0_3]
  unfold out0_3
  rw [View.canon_unit_zero zero_offsets2]
  simp only [View.ld_unit_zero (S := S10000x8) zero_offsets2, View.ld_unit_zero (S := S8x16) zero_offsets2]
  obtain ⟨e0, e1, e2, e3, e4, e5, e6, e7, e8, e9⟩ := index_facts t
  funext j
  show k0_pay2 (F := Ideal) (iblk0 V c 0 t) (iblk0 V c 1 t) j
      = rowsTimes (V c main_arg0) (V c main_v29) (((cfg0.win 3).blk t).view.emb j)
  refine (congrArg (k0_pay2 (F := Ideal) (iblk0 V c 0 t) (iblk0 V c 1 t)) (eq_ix2 j)).trans ?_
  refine (tile_apply_a (iblk0 V c 0 t) (iblk0 V c 1 t) (j 0) (j 1)).trans ?_
  have hj0 : (j 0).val < 10000 := (j 0).isLt
  have hj1 : (j 1).val < 16 := (j 1).isLt
  unfold rowsTimes
  refine Finset.sum_congr rfl fun d _ => ?_
  have hd : d.val < 8 := d.isLt
  -- the feature tile at (row, d) is the feature array at the output tile's row; the matrix window is the matrix
  have h0 : iblk0 V c 0 t (ix2 (j 0) d)
      = V c main_arg0 (ix2 ((((cfg0.win 3).blk t).view.emb j) 0) d) := by
    unfold iblk0
    rw [View.read_apply]
    show V c main_arg0 (((cfg0.win 0).blk t).view.emb (ix2 (j 0) d)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 8 + 1 * d.val = d.val; omega
  have h1 : iblk0 V c 1 t (ix2 d (j 1))
      = V c main_v29 (ix2 d ((((cfg0.win 3).blk t).view.emb j) 1)) := by
    unfold iblk0
    rw [View.read_apply]
    show V c main_v29 (((cfg0.win 1).blk t).view.emb (ix2 d (j 1))) = _
    refine congrArg (V c main_v29) (funext fun a => Fin.ext ?_)
    match a with
    | ⟨0, _⟩ => show win0_1.index t (0 : Fin 2) * 8 + 1 * d.val = d.val; omega
    | ⟨1, _⟩ => show win0_1.index t (1 : Fin 2) * 16 + 1 * (j 1).val = win0_3.index t (1 : Fin 2) * 16 + 1 * (j 1).val; omega
  rw [h0, h1]

/-- An entry of output 1 lies in point `t`'s tile iff its row is among the tile's 10000 rows. -/
theorem mem_tile_a (t : Fin cfg0.N) (i : S100000x16.Idx) :
    i ∈ ((cfg0.win 3).blk t).view.set ↔ ∀ a : Fin 2, win0_3.index t a * S10000x16.size a ≤ (i a).val
      ∧ (i a).val < win0_3.index t a * S10000x16.size a + S10000x16.size a := by
  show i ∈ ((View.whole main_v31_0).slice (win0_3.rect t)).set ↔ _
  rw [View.set_slice_whole, Rect.mem_set_unit]
  exact Iff.rfl

/-- The ten tiles fill output 1: row `r` is in tile `r / 10000`. -/
theorem covered_a (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 10 := N_0
  have hlt : (i 0).val / 10000 < cfg0.N := by omega
  obtain ⟨-, -, -, -, -, -, e6, e7, e8, e9⟩ := index_facts ⟨(i 0).val / 10000, hlt⟩
  refine ⟨⟨(i 0).val / 10000, hlt⟩, flush0_3 _, ?_⟩
  rw [mem_tile_a]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e6]
    show (i 0).val / 10000 * 10000 ≤ (i 0).val ∧ (i 0).val < (i 0).val / 10000 * 10000 + 10000
    omega
  | ⟨1, _⟩ =>
    show win0_3.index ⟨(i 0).val / 10000, hlt⟩ (1 : Fin 2) * 16 ≤ (i 1).val
      ∧ (i 1).val < win0_3.index ⟨(i 0).val / 10000, hlt⟩ (1 : Fin 2) * 16 + 16
    rw [e7]
    omega

/-- After the region output 1 is the features times matrix 1. -/
theorem final_a (c : Dev nD) :
    (dat0 V c).arrAt 3 cfg0.N = rowsTimes (V c main_arg0) (V c main_v29) :=
  (dat0 V c).arrAt_eq_of_cover 3 _ (fun t _ => flushed_eq_a V c t) covered_a

/-- What point `t` writes back to output 2 is tile `t` of the features times matrix 2. -/
theorem flushed_eq_b (c : Dev nD) (t : Fin cfg0.N) :
    (dat0 V c).flushed 4 t = ((cfg0.win 4).blk t).view.read (Elt Ideal)
      (rowsTimes (V c main_arg0) (V c main_v30)) := by
  show (cfg0.win 4).cut (grid0.coords t) ((dat0 V c).after 4 t) = _
  rw [after0_4]
  unfold out0_4
  rw [View.canon_unit_zero zero_offsets2]
  simp only [View.ld_unit_zero (S := S10000x8) zero_offsets2, View.ld_unit_zero (S := S8x16) zero_offsets2]
  obtain ⟨e0, e1, e2, e3, e4, e5, e6, e7, e8, e9⟩ := index_facts t
  funext j
  show k0_pay3 (F := Ideal) (iblk0 V c 0 t) (iblk0 V c 2 t) j
      = rowsTimes (V c main_arg0) (V c main_v30) (((cfg0.win 4).blk t).view.emb j)
  refine (congrArg (k0_pay3 (F := Ideal) (iblk0 V c 0 t) (iblk0 V c 2 t)) (eq_ix2 j)).trans ?_
  refine (tile_apply_b (iblk0 V c 0 t) (iblk0 V c 2 t) (j 0) (j 1)).trans ?_
  have hj0 : (j 0).val < 10000 := (j 0).isLt
  have hj1 : (j 1).val < 16 := (j 1).isLt
  unfold rowsTimes
  refine Finset.sum_congr rfl fun d _ => ?_
  have hd : d.val < 8 := d.isLt
  -- the feature tile at (row, d) is the feature array at the output tile's row; the matrix window is the matrix
  have h0 : iblk0 V c 0 t (ix2 (j 0) d)
      = V c main_arg0 (ix2 ((((cfg0.win 4).blk t).view.emb j) 0) d) := by
    unfold iblk0
    rw [View.read_apply]
    show V c main_arg0 (((cfg0.win 0).blk t).view.emb (ix2 (j 0) d)) = _
    refine congrArg (V c main_arg0) (funext fun a => Fin.ext ?_)
    match a with
    | ⟨0, _⟩ => show win0_0.index t (0 : Fin 2) * 10000 + 1 * (j 0).val = win0_4.index t (0 : Fin 2) * 10000 + 1 * (j 0).val; omega
    | ⟨1, _⟩ => show win0_0.index t (1 : Fin 2) * 8 + 1 * d.val = d.val; omega
  have h1 : iblk0 V c 2 t (ix2 d (j 1))
      = V c main_v30 (ix2 d ((((cfg0.win 4).blk t).view.emb j) 1)) := by
    unfold iblk0
    rw [View.read_apply]
    show V c main_v30 (((cfg0.win 2).blk t).view.emb (ix2 d (j 1))) = _
    refine congrArg (V c main_v30) (funext fun a => Fin.ext ?_)
    match a with
    | ⟨0, _⟩ => show win0_2.index t (0 : Fin 2) * 8 + 1 * d.val = d.val; omega
    | ⟨1, _⟩ => show win0_2.index t (1 : Fin 2) * 16 + 1 * (j 1).val = win0_4.index t (1 : Fin 2) * 16 + 1 * (j 1).val; omega
  rw [h0, h1]

/-- An entry of output 2 lies in point `t`'s tile iff its row is among the tile's 10000 rows. -/
theorem mem_tile_b (t : Fin cfg0.N) (i : S100000x16.Idx) :
    i ∈ ((cfg0.win 4).blk t).view.set ↔ ∀ a : Fin 2, win0_4.index t a * S10000x16.size a ≤ (i a).val
      ∧ (i a).val < win0_4.index t a * S10000x16.size a + S10000x16.size a := by
  show i ∈ ((View.whole main_v31_1).slice (win0_4.rect t)).set ↔ _
  rw [View.set_slice_whole, Rect.mem_set_unit]
  exact Iff.rfl

/-- The ten tiles fill output 2: row `r` is in tile `r / 10000`. -/
theorem covered_b (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 10 := N_0
  have hlt : (i 0).val / 10000 < cfg0.N := by omega
  obtain ⟨-, -, -, -, -, -, e6, e7, e8, e9⟩ := index_facts ⟨(i 0).val / 10000, hlt⟩
  refine ⟨⟨(i 0).val / 10000, hlt⟩, flush0_4 _, ?_⟩
  rw [mem_tile_b]
  intro a
  match a with
  | ⟨0, _⟩ =>
    show win0_4.index ⟨(i 0).val / 10000, hlt⟩ (0 : Fin 2) * 10000 ≤ (i 0).val
      ∧ (i 0).val < win0_4.index ⟨(i 0).val / 10000, hlt⟩ (0 : Fin 2) * 10000 + 10000
    rw [e8]
    show (i 0).val / 10000 * 10000 ≤ (i 0).val ∧ (i 0).val < (i 0).val / 10000 * 10000 + 10000
    omega
  | ⟨1, _⟩ =>
    show win0_4.index ⟨(i 0).val / 10000, hlt⟩ (1 : Fin 2) * 16 ≤ (i 1).val
      ∧ (i 1).val < win0_4.index ⟨(i 0).val / 10000, hlt⟩ (1 : Fin 2) * 16 + 16
    rw [e9]
    omega

/-- After the region output 2 is the features times matrix 2. -/
theorem final_b (c : Dev nD) :
    (dat0 V c).arrAt 4 cfg0.N = rowsTimes (V c main_arg0) (V c main_v30) :=
  (dat0 V c).arrAt_eq_of_cover 4 _ (fun t _ => flushed_eq_b V c t) covered_b

end Cert.KernelIdeal.Project0

end
-- ==== Proof.Project2.lean ====
/-
  Region 2 of the idealized kernel: two products of the node features with weight matrices, tile by tile.

  Each grid point reads a tile of 10000 rows of the [100000, 16] feature array and the two whole [16, 16] weight matrices,
  and writes the tile's product with each matrix to the same rows of the two outputs. On the extended reals the change
  of the features' format is the identity and a product accumulated into zero is the plain sum over the 16 columns, so
  after the region each output array holds at (r, f) the inner product of row r of the features with column f of its
  matrix: the whole [100000, 16] by [16, 16] product, whatever the tiling.
-/
import proofs.«176683_j14259291423267_1_alg».proof.Proof.Gen.KernelIdeal.Frame
import proofs.«176683_j14259291423267_1_alg».proof.Proof.LibInnerProducts
import Idealize.ShloMosaic.Lib.Pipeline.Value
import Idealize.ShloMosaic.Lib.ValueIdx

set_option maxRecDepth 16384

noncomputable section

namespace Cert.KernelIdeal.Project2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_offsets2 : (![0, 0] : Fin 2 → Nat) = fun _ => 0 := funext fun a => by fin_cases a <;> rfl

/-- Features times a weight matrix on whole arrays: entry (r, f) is the sum over d of `h (r, d) · w (d, f)`. -/
def rowsTimes (h : S100000x16.Idx → EReal) (w : S16x16.Idx → EReal) : S100000x16.Idx → EReal :=
  fun i => ∑ d : Fin 16, h (ix2 (i 0) d) * w (ix2 d (i 1))

/-- The first stored value at row `p`, column `f` of a tile: the inner product of the tile's row with the matrix's column. -/
theorem tile_apply_a (x : Vec Ideal S10000x16 .f32) (w : Vec Ideal S16x16 .bf16) (p : Fin 10000) (f : Fin 16) :
    k2_pay2 (F := Ideal) x w (ix2 p f) = ∑ d : Fin 16, x (ix2 p d) * w (ix2 d f) := by
  unfold k2_pay2 k2_pay1
  simp only [shapeCast_self]
  refine (InnerProducts.matmul_zero_apply (φ₁ := .bf16) (φ₂ := .bf16) dot_S10000x16_S16x16_S10000x16_1_0_0_1_n_n rfl none _ w p f).trans ?_
  rfl

/-- The second stored value, the same with the other matrix. -/
theorem tile_apply_b (x : Vec Ideal S10000x16 .f32) (w : Vec Ideal S16x16 .bf16) (p : Fin 10000) (f : Fin 16) :
    k2_pay3 (F := Ideal) x w (ix2 p f) = ∑ d : Fin 16, x (ix2 p d) * w (ix2 d f) := by
  unfold k2_pay3 k2_pay1
  simp only [shapeCast_self]
  refine (InnerProducts.matmul_zero_apply (φ₁ := .bf16) (φ₂ := .bf16) dot_S10000x16_S16x16_S10000x16_1_0_0_1_n_n rfl none _ w p f).trans ?_
  rfl

/-- The grid's index maps, decided over the ten points: the feature window and the two outputs sit at tile `t`, the two
    weight windows at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back to output 1 is tile `t` of the features times matrix 1. -/
theorem flushed_eq_a (c : Dev nD) (t : Fin cfg2.N) :
    (dat2 V c).flushed 3 t = ((cfg2.win 3).blk t).view.read (Elt Ideal)
      (rowsTimes (V c main_v45) (V c main_v46)) := by
  show (cfg2.win 3).cut (grid2.coords t) ((dat2 V c).after 3 t) = _
  rw [after2_3]
  unfold out2_3
  rw [View.canon_unit_zero zero_offsets2]
  simp only [View.ld_unit_zero (S := S10000x16) zero_offsets2, View.ld_unit_zero (S := S16x16) zero_offsets2]
  obtain ⟨e0, e1, e2, e3, e4, e5, e6, e7, e8, e9⟩ := index_facts t
  funext j
  show k2_pay2 (F := Ideal) (iblk2 V c 0 t) (iblk2 V c 1 t) j
      = rowsTimes (V c main_v45) (V c main_v46) (((cfg2.win 3).blk t).view.emb j)
  refine (congrArg (k2_pay2 (F := Ideal) (iblk2 V c 0 t) (iblk2 V c 1 t)) (eq_ix2 j)).trans ?_
  refine (tile_apply_a (iblk2 V c 0 t) (iblk2 V c 1 t) (j 0) (j 1)).trans ?_
  have hj0 : (j 0).val < 10000 := (j 0).isLt
  have hj1 : (j 1).val < 16 := (j 1).isLt
  unfold rowsTimes
  refine Finset.sum_congr rfl fun d _ => ?_
  have hd : d.val < 16 := d.isLt
  -- the feature tile at (row, d) is the feature array at the output tile's row; the matrix window is the matrix
  have h0 : iblk2 V c 0 t (ix2 (j 0) d)
      = V c main_v45 (ix2 ((((cfg2.win 3).blk t).view.emb j) 0) d) := by
    unfold iblk2
    rw [View.read_apply]
    show V c main_v45 (((cfg2.win 0).blk t).view.emb (ix2 (j 0) d)) = _
    refine congrArg (V c main_v45) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 16 + 1 * d.val = d.val; omega
  have h1 : iblk2 V c 1 t (ix2 d (j 1))
      = V c main_v46 (ix2 d ((((cfg2.win 3).blk t).view.emb j) 1)) := by
    unfold iblk2
    rw [View.read_apply]
    show V c main_v46 (((cfg2.win 1).blk t).view.emb (ix2 d (j 1))) = _
    refine congrArg (V c main_v46) (funext fun a => Fin.ext ?_)
    match a with
    | ⟨0, _⟩ => show win2_1.index t (0 : Fin 2) * 16 + 1 * d.val = d.val; omega
    | ⟨1, _⟩ => show win2_1.index t (1 : Fin 2) * 16 + 1 * (j 1).val = win2_3.index t (1 : Fin 2) * 16 + 1 * (j 1).val; omega
  rw [h0, h1]

/-- An entry of output 1 lies in point `t`'s tile iff its row is among the tile's 10000 rows. -/
theorem mem_tile_a (t : Fin cfg2.N) (i : S100000x16.Idx) :
    i ∈ ((cfg2.win 3).blk t).view.set ↔ ∀ a : Fin 2, win2_3.index t a * S10000x16.size a ≤ (i a).val
      ∧ (i a).val < win2_3.index t a * S10000x16.size a + S10000x16.size a := by
  show i ∈ ((View.whole main_v48_0).slice (win2_3.rect t)).set ↔ _
  rw [View.set_slice_whole, Rect.mem_set_unit]
  exact Iff.rfl

/-- The ten tiles fill output 1: row `r` is in tile `r / 10000`. -/
theorem covered_a (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 10 := N_2
  have hlt : (i 0).val / 10000 < cfg2.N := by omega
  obtain ⟨-, -, -, -, -, -, e6, e7, e8, e9⟩ := index_facts ⟨(i 0).val / 10000, hlt⟩
  refine ⟨⟨(i 0).val / 10000, hlt⟩, flush2_3 _, ?_⟩
  rw [mem_tile_a]
  intro a
  match a with
  | ⟨0, _⟩ =>
    show win2_3.index ⟨(i 0).val / 10000, hlt⟩ (0 : Fin 2) * 10000 ≤ (i 0).val
      ∧ (i 0).val < win2_3.index ⟨(i 0).val / 10000, hlt⟩ (0 : Fin 2) * 10000 + 10000
    rw [e6]
    show (i 0).val / 10000 * 10000 ≤ (i 0).val ∧ (i 0).val < (i 0).val / 10000 * 10000 + 10000
    omega
  | ⟨1, _⟩ =>
    show win2_3.index ⟨(i 0).val / 10000, hlt⟩ (1 : Fin 2) * 16 ≤ (i 1).val
      ∧ (i 1).val < win2_3.index ⟨(i 0).val / 10000, hlt⟩ (1 : Fin 2) * 16 + 16
    rw [e7]
    omega

/-- After the region output 1 is the features times matrix 1. -/
theorem final_a (c : Dev nD) :
    (dat2 V c).arrAt 3 cfg2.N = rowsTimes (V c main_v45) (V c main_v46) :=
  (dat2 V c).arrAt_eq_of_cover 3 _ (fun t _ => flushed_eq_a V c t) covered_a

/-- What point `t` writes back to output 2 is tile `t` of the features times matrix 2. -/
theorem flushed_eq_b (c : Dev nD) (t : Fin cfg2.N) :
    (dat2 V c).flushed 4 t = ((cfg2.win 4).blk t).view.read (Elt Ideal)
      (rowsTimes (V c main_v45) (V c main_v47)) := by
  show (cfg2.win 4).cut (grid2.coords t) ((dat2 V c).after 4 t) = _
  rw [after2_4]
  unfold out2_4
  rw [View.canon_unit_zero zero_offsets2]
  simp only [View.ld_unit_zero (S := S10000x16) zero_offsets2, View.ld_unit_zero (S := S16x16) zero_offsets2]
  obtain ⟨e0, e1, e2, e3, e4, e5, e6, e7, e8, e9⟩ := index_facts t
  funext j
  show k2_pay3 (F := Ideal) (iblk2 V c 0 t) (iblk2 V c 2 t) j
      = rowsTimes (V c main_v45) (V c main_v47) (((cfg2.win 4).blk t).view.emb j)
  refine (congrArg (k2_pay3 (F := Ideal) (iblk2 V c 0 t) (iblk2 V c 2 t)) (eq_ix2 j)).trans ?_
  refine (tile_apply_b (iblk2 V c 0 t) (iblk2 V c 2 t) (j 0) (j 1)).trans ?_
  have hj0 : (j 0).val < 10000 := (j 0).isLt
  have hj1 : (j 1).val < 16 := (j 1).isLt
  unfold rowsTimes
  refine Finset.sum_congr rfl fun d _ => ?_
  have hd : d.val < 16 := d.isLt
  -- the feature tile at (row, d) is the feature array at the output tile's row; the matrix window is the matrix
  have h0 : iblk2 V c 0 t (ix2 (j 0) d)
      = V c main_v45 (ix2 ((((cfg2.win 4).blk t).view.emb j) 0) d) := by
    unfold iblk2
    rw [View.read_apply]
    show V c main_v45 (((cfg2.win 0).blk t).view.emb (ix2 (j 0) d)) = _
    refine congrArg (V c main_v45) (funext fun a => Fin.ext ?_)
    match a with
    | ⟨0, _⟩ => show win2_0.index t (0 : Fin 2) * 10000 + 1 * (j 0).val = win2_4.index t (0 : Fin 2) * 10000 + 1 * (j 0).val; omega
    | ⟨1, _⟩ => show win2_0.index t (1 : Fin 2) * 16 + 1 * d.val = d.val; omega
  have h1 : iblk2 V c 2 t (ix2 d (j 1))
      = V c main_v47 (ix2 d ((((cfg2.win 4).blk t).view.emb j) 1)) := by
    unfold iblk2
    rw [View.read_apply]
    show V c main_v47 (((cfg2.win 2).blk t).view.emb (ix2 d (j 1))) = _
    refine congrArg (V c main_v47) (funext fun a => Fin.ext ?_)
    match a with
    | ⟨0, _⟩ => show win2_2.index t (0 : Fin 2) * 16 + 1 * d.val = d.val; omega
    | ⟨1, _⟩ => show win2_2.index t (1 : Fin 2) * 16 + 1 * (j 1).val = win2_4.index t (1 : Fin 2) * 16 + 1 * (j 1).val; omega
  rw [h0, h1]

/-- An entry of output 2 lies in point `t`'s tile iff its row is among the tile's 10000 rows. -/
theorem mem_tile_b (t : Fin cfg2.N) (i : S100000x16.Idx) :
    i ∈ ((cfg2.win 4).blk t).view.set ↔ ∀ a : Fin 2, win2_4.index t a * S10000x16.size a ≤ (i a).val
      ∧ (i a).val < win2_4.index t a * S10000x16.size a + S10000x16.size a := by
  show i ∈ ((View.whole main_v48_1).slice (win2_4.rect t)).set ↔ _
  rw [View.set_slice_whole, Rect.mem_set_unit]
  exact Iff.rfl

/-- The ten tiles fill output 2: row `r` is in tile `r / 10000`. -/
theorem covered_b (i : S100000x16.Idx) :
    ∃ t : Fin cfg2.N, (cfg2.win 4).flush t = true ∧ i ∈ ((cfg2.win 4).blk t).view.set := by
  have hi0 : (i 0).val < 100000 := (i 0).isLt
  have hi1 : (i 1).val < 16 := (i 1).isLt
  have hN : cfg2.N = 10 := N_2
  have hlt : (i 0).val / 10000 < cfg2.N := by omega
  obtain ⟨-, -, -, -, -, -, e6, e7, e8, e9⟩ := index_facts ⟨(i 0).val / 10000, hlt⟩
  refine ⟨⟨(i 0).val / 10000, hlt⟩, flush2_4 _, ?_⟩
  rw [mem_tile_b]
  intro a
  match a with
  | ⟨0, _⟩ =>
    show win2_4.index ⟨(i 0).val / 10000, hlt⟩ (0 : Fin 2) * 10000 ≤ (i 0).val
      ∧ (i 0).val < win2_4.index ⟨(i 0).val / 10000, hlt⟩ (0 : Fin 2) * 10000 + 10000
    rw [e8]
    show (i 0).val / 10000 * 10000 ≤ (i 0).val ∧ (i 0).val < (i 0).val / 10000 * 10000 + 10000
    omega
  | ⟨1, _⟩ =>
    show win2_4.index ⟨(i 0).val / 10000, hlt⟩ (1 : Fin 2) * 16 ≤ (i 1).val
      ∧ (i 1).val < win2_4.index ⟨(i 0).val / 10000, hlt⟩ (1 : Fin 2) * 16 + 16
    rw [e9]
    omega

/-- After the region output 2 is the features times matrix 2. -/
theorem final_b (c : Dev nD) :
    (dat2 V c).arrAt 4 cfg2.N = rowsTimes (V c main_v45) (V c main_v47) :=
  (dat2 V c).arrAt_eq_of_cover 4 _ (fun t _ => flushed_eq_b V c t) covered_b

end Cert.KernelIdeal.Project2

end
-- ==== Proof.Combine1.lean ====
/-
  Region 1 of the idealized kernel: bias, add and rectify, tile by tile.

  Each grid point reads a tile of 10000 rows of the aggregated messages and of the root term, and the whole bias vector,
  and writes `max ((agg + root) + bias, 0)` to the same rows of the output. The ten tiles are disjoint and fill the
  [100000, 16] output, so after the region the output array is that expression of the region's three input arrays, entry
  by entry; the bias enters by its column only.
-/
import proofs.«176683_j14259291423267_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Combine1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The layer's epilogue on whole arrays: entry (r, f) is `max ((agg (r, f) + root (r, f)) + bias f, 0)`. -/
def biasRelu (agg root : S100000x16.Idx → EReal) (bias : S16.Idx → EReal) : S100000x16.Idx → EReal :=
  fun i => max ((agg i + root i) + bias (ix1 (i 1))) (Ideal.ofBits .f32 0x00000000#32)

/-- The body's stored value at row `p`, column `f` of a tile: the same expression of the tile's entries. -/
theorem tile_apply (b : Vec Ideal S16 .f32) (a v : Vec Ideal S10000x16 .f32) (p : Fin 10000) (f : Fin 16) :
    k1_pay1 (F := Ideal) b a v (ix2 p f)
      = max ((a (ix2 p f) + v (ix2 p f)) + b (ix1 f)) (Ideal.ofBits .f32 0x00000000#32) := by
  unfold k1_pay1
  simp only [shapeCast_self]
  rw [maximumf_apply, addf_apply, addf_apply, broadcast_apply, broadcastTo_1b_ab_apply, shapeCast_a_1a_apply]
  rfl

/-- The grid's index maps, decided over the ten points: the three tiled windows sit at tile `t`, the bias window at 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is tile `t` of `biasRelu` of the region's input arrays. -/
theorem flushed_eq (c : Dev nD) (t : Fin cfg1.N) :
    (dat1 V c).flushed 3 t = ((cfg1.win 3).blk t).view.read (Elt Ideal)
      (biasRelu (V c main_v44) (V c main_v31_1) (V c main_arg4)) := by
  show (cfg1.win 3).cut (grid1.coords t) ((dat1 V c).after 3 t) = _
  rw [after1_3]
  unfold out1_3
  rw [View.canon_unit_zero zero_offsets2]
  simp only [View.ld_unit_zero (S := S10000x16) zero_offsets2, View.ld_unit_zero (S := S16) zero_offsets1]
  obtain ⟨e0, e1, e2, e3, e4, e5, e6⟩ := index_facts t
  funext j
  show k1_pay1 (F := Ideal) (iblk1 V c 2 t) (iblk1 V c 0 t) (iblk1 V c 1 t) j
      = biasRelu (V c main_v44) (V c main_v31_1) (V c main_arg4) (((cfg1.win 3).blk t).view.emb j)
  refine (congrArg (k1_pay1 (F := Ideal) (iblk1 V c 2 t) (iblk1 V c 0 t) (iblk1 V c 1 t)) (eq_ix2 j)).trans ?_
  refine (tile_apply (iblk1 V c 2 t) (iblk1 V c 0 t) (iblk1 V c 1 t) (j 0) (j 1)).trans ?_
  have hj0 : (j 0).val < 10000 := (j 0).isLt
  have hj1 : (j 1).val < 16 := (j 1).isLt
  -- each input tile, read at (row, column) of the tile, is its array at the output tile's position
  have h0 : iblk1 V c 0 t (ix2 (j 0) (j 1)) = V c main_v44 (((cfg1.win 3).blk t).view.emb j) := by
    unfold iblk1
    rw [View.read_apply]
    show V c main_v44 (((cfg1.win 0).blk t).view.emb (ix2 (j 0) (j 1))) = _
    refine congrArg (V c main_v44) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * (j 1).val = win1_3.index t (1 : Fin 2) * 16 + 1 * (j 1).val; omega
  have h1 : iblk1 V c 1 t (ix2 (j 0) (j 1)) = V c main_v31_1 (((cfg1.win 3).blk t).view.emb j) := by
    unfold iblk1
    rw [View.read_apply]
    show V c main_v31_1 (((cfg1.win 1).blk t).view.emb (ix2 (j 0) (j 1))) = _
    refine congrArg (V c main_v31_1) (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 16 + 1 * (j 1).val = win1_3.index t (1 : Fin 2) * 16 + 1 * (j 1).val; omega
  have h2 : iblk1 V c 2 t (ix1 (j 1)) = V c main_arg4 (ix1 ((((cfg1.win 3).blk t).view.emb j) 1)) := by
    unfold iblk1
    rw [View.read_apply]
    show V c main_arg4 (((cfg1.win 2).blk t).view.emb (ix1 (j 1))) = _
    refine congrArg (V c main_arg4) (funext fun a => Fin.ext ?_)
    match a with
    | ⟨0, _⟩ => show win1_2.index t (0 : Fin 1) * 16 + 1 * (j 1).val = win1_3.index t (1 : Fin 2) * 16 + 1 * (j 1).val; omega
  rw [h0, h1, h2]
  rfl

/-- An entry of the output array lies in point `t`'s tile iff its row is among the tile's 10000 rows. -/
theorem mem_tile (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v45).slice (win1_3.rect t)).set ↔ _
  rw [View.set_slice_whole, Rect.mem_set_unit]
  exact Iff.rfl

/-- The ten tiles fill the output: row `r` is in tile `r / 10000`. -/
theorem covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  have hlt : (i 0).val / 10000 < cfg1.N := by omega
  obtain ⟨-, -, -, -, -, e5, e6⟩ := index_facts ⟨(i 0).val / 10000, hlt⟩
  refine ⟨⟨(i 0).val / 10000, hlt⟩, flush1_3 _, ?_⟩
  rw [mem_tile]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e5]
    show (i 0).val / 10000 * 10000 ≤ (i 0).val ∧ (i 0).val < (i 0).val / 10000 * 10000 + 10000
    omega
  | ⟨1, _⟩ =>
    show win1_3.index ⟨(i 0).val / 10000, hlt⟩ (1 : Fin 2) * 16 ≤ (i 1).val
      ∧ (i 1).val < win1_3.index ⟨(i 0).val / 10000, hlt⟩ (1 : Fin 2) * 16 + 16
    rw [e6]
    omega

/-- After the region the output array is `biasRelu` of the region's three input arrays. -/
theorem final (c : Dev nD) :
    (dat1 V c).arrAt 3 cfg1.N = biasRelu (V c main_v44) (V c main_v31_1) (V c main_arg4) :=
  (dat1 V c).arrAt_eq_of_cover 3 _ (fun t _ => flushed_eq V c t) covered

end Cert.KernelIdeal.Combine1

end
-- ==== Proof.Combine3.lean ====
/-
  Region 3 of the idealized kernel: bias, add and rectify, tile by tile.

  Each grid point reads a tile of 10000 rows of the aggregated messages and of the root term, and the whole bias vector,
  and writes `max ((agg + root) + bias, 0)` to the same rows of the output. The ten tiles are disjoint and fill the
  [100000, 16] output, so after the region the output array is that expression of the region's three input arrays, entry
  by entry; the bias enters by its column only.
-/
import proofs.«176683_j14259291423267_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Combine3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The layer's epilogue on whole arrays: entry (r, f) is `max ((agg (r, f) + root (r, f)) + bias f, 0)`. -/
def biasRelu (agg root : S100000x16.Idx → EReal) (bias : S16.Idx → EReal) : S100000x16.Idx → EReal :=
  fun i => max ((agg i + root i) + bias (ix1 (i 1))) (Ideal.ofBits .f32 0x00000000#32)

/-- The body's stored value at row `p`, column `f` of a tile: the same expression of the tile's entries. -/
theorem tile_apply (b : Vec Ideal S16 .f32) (a v : Vec Ideal S10000x16 .f32) (p : Fin 10000) (f : Fin 16) :
    k3_pay1 (F := Ideal) b a v (ix2 p f)
      = max ((a (ix2 p f) + v (ix2 p f)) + b (ix1 f)) (Ideal.ofBits .f32 0x00000000#32) := by
  unfold k3_pay1
  simp only [shapeCast_self]
  rw [maximumf_apply, addf_apply, addf_apply, broadcast_apply, broadcastTo_1b_ab_apply, shapeCast_a_1a_apply]
  rfl

/-- The grid's index maps, decided over the ten points: the three tiled windows sit at tile `t`, the bias window at 0. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- What point `t` writes back is tile `t` of `biasRelu` of the region's input arrays. -/
theorem flushed_eq (c : Dev nD) (t : Fin cfg3.N) :
    (dat3 V c).flushed 3 t = ((cfg3.win 3).blk t).view.read (Elt Ideal)
      (biasRelu (V c main_v61) (V c main_v48_1) (V c main_arg7)) := by
  show (cfg3.win 3).cut (grid3.coords t) ((dat3 V c).after 3 t) = _
  rw [after3_3]
  unfold out3_3
  rw [View.canon_unit_zero zero_offsets2]
  simp only [View.ld_unit_zero (S := S10000x16) zero_offsets2, View.ld_unit_zero (S := S16) zero_offsets1]
  obtain ⟨e0, e1, e2, e3, e4, e5, e6⟩ := index_facts t
  funext j
  show k3_pay1 (F := Ideal) (iblk3 V c 2 t) (iblk3 V c 0 t) (iblk3 V c 1 t) j
      = biasRelu (V c main_v61) (V c main_v48_1) (V c main_arg7) (((cfg3.win 3).blk t).view.emb j)
  refine (congrArg (k3_pay1 (F := Ideal) (iblk3 V c 2 t) (iblk3 V c 0 t) (iblk3 V c 1 t)) (eq_ix2 j)).trans ?_
  refine (tile_apply (iblk3 V c 2 t) (iblk3 V c 0 t) (iblk3 V c 1 t) (j 0) (j 1)).trans ?_
  have hj0 : (j 0).val < 10000 := (j 0).isLt
  have hj1 : (j 1).val < 16 := (j 1).isLt
  -- each input tile, read at (row, column) of the tile, is its array at the output tile's position
  have h0 : iblk3 V c 0 t (ix2 (j 0) (j 1)) = V c main_v61 (((cfg3.win 3).blk t).view.emb j) := by
    unfold iblk3
    rw [View.read_apply]
    show V c main_v61 (((cfg3.win 0).blk t).view.emb (ix2 (j 0) (j 1))) = _
    refine congrArg (V c main_v61) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 16 + 1 * (j 1).val = win3_3.index t (1 : Fin 2) * 16 + 1 * (j 1).val; omega
  have h1 : iblk3 V c 1 t (ix2 (j 0) (j 1)) = V c main_v48_1 (((cfg3.win 3).blk t).view.emb j) := by
    unfold iblk3
    rw [View.read_apply]
    show V c main_v48_1 (((cfg3.win 1).blk t).view.emb (ix2 (j 0) (j 1))) = _
    refine congrArg (V c main_v48_1) (funext fun a => Fin.ext ?_)
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 16 + 1 * (j 1).val = win3_3.index t (1 : Fin 2) * 16 + 1 * (j 1).val; omega
  have h2 : iblk3 V c 2 t (ix1 (j 1)) = V c main_arg7 (ix1 ((((cfg3.win 3).blk t).view.emb j) 1)) := by
    unfold iblk3
    rw [View.read_apply]
    show V c main_arg7 (((cfg3.win 2).blk t).view.emb (ix1 (j 1))) = _
    refine congrArg (V c main_arg7) (funext fun a => Fin.ext ?_)
    match a with
    | ⟨0, _⟩ => show win3_2.index t (0 : Fin 1) * 16 + 1 * (j 1).val = win3_3.index t (1 : Fin 2) * 16 + 1 * (j 1).val; omega
  rw [h0, h1, h2]
  rfl

/-- An entry of the output array lies in point `t`'s tile iff its row is among the tile's 10000 rows. -/
theorem mem_tile (t : Fin cfg3.N) (i : S100000x16.Idx) :
    i ∈ ((cfg3.win 3).blk t).view.set ↔ ∀ a : Fin 2, win3_3.index t a * S10000x16.size a ≤ (i a).val
      ∧ (i a).val < win3_3.index t a * S10000x16.size a + S10000x16.size a := by
  show i ∈ ((View.whole main_v62).slice (win3_3.rect t)).set ↔ _
  rw [View.set_slice_whole, Rect.mem_set_unit]
  exact Iff.rfl

/-- The ten tiles fill the output: row `r` is in tile `r / 10000`. -/
theorem covered (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  have hN : cfg3.N = 10 := N_3
  have hlt : (i 0).val / 10000 < cfg3.N := by omega
  obtain ⟨-, -, -, -, -, e5, e6⟩ := index_facts ⟨(i 0).val / 10000, hlt⟩
  refine ⟨⟨(i 0).val / 10000, hlt⟩, flush3_3 _, ?_⟩
  rw [mem_tile]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e5]
    show (i 0).val / 10000 * 10000 ≤ (i 0).val ∧ (i 0).val < (i 0).val / 10000 * 10000 + 10000
    omega
  | ⟨1, _⟩ =>
    show win3_3.index ⟨(i 0).val / 10000, hlt⟩ (1 : Fin 2) * 16 ≤ (i 1).val
      ∧ (i 1).val < win3_3.index ⟨(i 0).val / 10000, hlt⟩ (1 : Fin 2) * 16 + 16
    rw [e6]
    omega

/-- After the region the output array is `biasRelu` of the region's three input arrays. -/
theorem final (c : Dev nD) :
    (dat3 V c).arrAt 3 cfg3.N = biasRelu (V c main_v61) (V c main_v48_1) (V c main_arg7) :=
  (dat3 V c).arrAt_eq_of_cover 3 _ (fun t _ => flushed_eq V c t) covered

end Cert.KernelIdeal.Combine3

end
-- ==== Proof.RefStages.lean ====
/-
  The reference's stages as the layer's two building blocks.

  The reference computes each layer as a host `dot_general` of the node features with a weight matrix, twice, and an
  epilogue of two additions and a maximum with zero. On the extended reals the `dot_general` is, entry by entry, the sum
  over the contracted axis of products, and the epilogue is `max ((agg + root) + bias, 0)` with the bias entering by its
  column: the same two functions of whole arrays that the kernel's regions compute tile by tile.
-/
import proofs.«176683_j14259291423267_1_alg».proof.Proof.ReadP
import proofs.«176683_j14259291423267_1_alg».proof.Proof.Project0
import proofs.«176683_j14259291423267_1_alg».proof.Proof.Project2
import proofs.«176683_j14259291423267_1_alg».proof.Proof.Combine1
import proofs.«176683_j14259291423267_1_alg».proof.Proof.Combine3

set_option maxRecDepth 16384

noncomputable section

namespace Cert.ReferenceIdeal.Stages

open Cert.ReferenceIdeal Cert.ReferenceIdeal.ReadP
open Idealize.ShloMosaic Idealize.ShloMosaic.TcCoe Idealize.SL.Sem Idealize.ShloMosaic.ValueIdx
open scoped BigOperators

variable (x0 : (⟨S100000x8, .f32⟩ : BufTy).Contents (Elt Ideal)) (x1 : (⟨S2x3200000, .i32⟩ : BufTy).Contents (Elt Ideal))
  (x2 x3 : (⟨S8x16, .f32⟩ : BufTy).Contents (Elt Ideal)) (x4 : (⟨S16, .f32⟩ : BufTy).Contents (Elt Ideal))
  (x5 x6 : (⟨S16x16, .f32⟩ : BufTy).Contents (Elt Ideal)) (x7 : (⟨S16, .f32⟩ : BufTy).Contents (Elt Ideal))

/-- Layer 1's message projection: the features times the first weight matrix. -/
theorem proj_v29 : Cert.KernelIdeal.Project0.rowsTimes x0 x2 = val_main_v29 (F := Ideal) x0 x2 := by
  funext i
  rw [val_main_v29_apply]
  unfold Cert.KernelIdeal.Project0.rowsTimes
  refine Finset.sum_congr rfl fun d _ => ?_
  have el : lidx_main_v29 i d = ix2 (i 0) d := funext fun a => by match a with | ⟨0, _⟩ => rfl | ⟨1, _⟩ => rfl
  have er : ridx_main_v29 i d = ix2 d (i 1) := funext fun a => by match a with | ⟨0, _⟩ => rfl | ⟨1, _⟩ => rfl
  rw [el, er]
  rfl

/-- Layer 1's root term: the features times the root weight matrix. -/
theorem proj_v43 : Cert.KernelIdeal.Project0.rowsTimes x0 x3 = val_main_v43 (F := Ideal) x0 x3 := by
  funext i
  rw [val_main_v43_apply]
  unfold Cert.KernelIdeal.Project0.rowsTimes
  refine Finset.sum_congr rfl fun d _ => ?_
  have el : lidx_main_v43 i d = ix2 (i 0) d := funext fun a => by match a with | ⟨0, _⟩ => rfl | ⟨1, _⟩ => rfl
  have er : ridx_main_v43 i d = ix2 d (i 1) := funext fun a => by match a with | ⟨0, _⟩ => rfl | ⟨1, _⟩ => rfl
  rw [el, er]
  rfl

/-- Layer 1's epilogue. -/
theorem epi_v48 : Cert.KernelIdeal.Combine1.biasRelu (val_main_v42 (F := Ideal) x0 x1 x2) (val_main_v43 (F := Ideal) x0 x3) x4
    = val_main_v48 (F := Ideal) x0 x1 x2 x3 x4 := by
  funext i
  rw [val_main_v48_apply, val_main_v47_apply, val_main_v44_apply, val_main_v46_apply, val_main_v45_apply,
    val_main_call1_v0_apply, val_main_call1_cst_apply]
  unfold Cert.KernelIdeal.Combine1.biasRelu
  have e : idx_main_v45 (idx_main_v46 i) = ix1 (i 1) := funext fun a => by match a with | ⟨0, _⟩ => rfl
  rw [e]
  rfl

/-- Layer 2's message projection, of layer 1's output. -/
theorem proj_v49 : Cert.KernelIdeal.Project2.rowsTimes (val_main_v48 (F := Ideal) x0 x1 x2 x3 x4) x5
    = val_main_v49 (F := Ideal) x0 x1 x2 x3 x4 x5 := by
  funext i
  rw [val_main_v49_apply]
  unfold Cert.KernelIdeal.Project2.rowsTimes
  refine Finset.sum_congr rfl fun d _ => ?_
  have el : lidx_main_v49 i d = ix2 (i 0) d := funext fun a => by match a with | ⟨0, _⟩ => rfl | ⟨1, _⟩ => rfl
  have er : ridx_main_v49 i d = ix2 d (i 1) := funext fun a => by match a with | ⟨0, _⟩ => rfl | ⟨1, _⟩ => rfl
  rw [el, er]
  rfl

/-- Layer 2's root term. -/
theorem proj_v63 : Cert.KernelIdeal.Project2.rowsTimes (val_main_v48 (F := Ideal) x0 x1 x2 x3 x4) x6
    = val_main_v63 (F := Ideal) x0 x1 x2 x3 x4 x6 := by
  funext i
  rw [val_main_v63_apply]
  unfold Cert.KernelIdeal.Project2.rowsTimes
  refine Finset.sum_congr rfl fun d _ => ?_
  have el : lidx_main_v63 i d = ix2 (i 0) d := funext fun a => by match a with | ⟨0, _⟩ => rfl | ⟨1, _⟩ => rfl
  have er : ridx_main_v63 i d = ix2 d (i 1) := funext fun a => by match a with | ⟨0, _⟩ => rfl | ⟨1, _⟩ => rfl
  rw [el, er]
  rfl

/-- Layer 2's epilogue: the program's result. -/
theorem epi_v68 : Cert.KernelIdeal.Combine3.biasRelu (val_main_v62 (F := Ideal) x0 x1 x2 x3 x4 x5)
      (val_main_v63 (F := Ideal) x0 x1 x2 x3 x4 x6) x7
    = val_main_v68 (F := Ideal) x0 x1 x2 x3 x4 x5 x6 x7 := by
  funext i
  rw [val_main_v68_apply, val_main_v67_apply, val_main_v64_apply, val_main_v66_apply, val_main_v65_apply,
    val_main_call2_v0_apply, val_main_call2_cst_apply]
  unfold Cert.KernelIdeal.Combine3.biasRelu
  have e : idx_main_v65 (idx_main_v66 i) = ix1 (i 1) := funext fun a => by match a with | ⟨0, _⟩ => rfl
  rw [e]
  rfl

end Cert.ReferenceIdeal.Stages

end
-- ==== Proof.Boundaries.lean ====
/-
  The idealized kernel's buffers at every boundary between its segments.

  The run of the program folds the launch memory through ten segments. Boundary by boundary, each buffer a later
  segment reads is identified with the reference's stage of the same value, as a function of the eight arguments: the
  edge lists and edge weights after the first three stretches; after region 0 the two products of the features with
  the first layer's matrices; after the next stretch the aggregated messages; after region 1 the first layer's output;
  then the same four steps for the second layer. A buffer a segment does not write keeps its stage. The last boundary's
  result buffer is the reference's result.
-/
import proofs.«176683_j14259291423267_1_alg».proof.Proof.Gen.KernelIdeal.Frame
import proofs.«176683_j14259291423267_1_alg».proof.Proof.HostStretches
import proofs.«176683_j14259291423267_1_alg».proof.Proof.Project0
import proofs.«176683_j14259291423267_1_alg».proof.Proof.Project2
import proofs.«176683_j14259291423267_1_alg».proof.Proof.Combine1
import proofs.«176683_j14259291423267_1_alg».proof.Proof.Combine3
import proofs.«176683_j14259291423267_1_alg».proof.Proof.RefStages

set_option maxRecDepth 16384

noncomputable section

namespace Cert.KernelIdeal.Boundaries

open Cert.KernelIdeal Cert.KernelIdeal.Gen Cert.KernelIdeal.HostStretches
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## After the first stretch -/

theorem b1_v1 : W1 m ρ c (Proc.devRef .tc main_v1) = val_main_v1 (F := Ideal) (m ((c : Thread nD τ).loc main_arg1)) := first_v1 (W0 m ρ c)
theorem b1_v3 : W1 m ρ c (Proc.devRef .tc main_v3) = val_main_v3 (F := Ideal) (m ((c : Thread nD τ).loc main_arg1)) := first_v3 (W0 m ρ c)
theorem b1_v9 : W1 m ρ c (Proc.devRef .tc main_v9) = val_main_v9 (F := Ideal) (m ((c : Thread nD τ).loc main_arg1)) := first_v9 (W0 m ρ c)
theorem b1_v12 : W1 m ρ c (Proc.devRef .tc main_v12) = val_main_v12 (F := Ideal) (m ((c : Thread nD τ).loc main_arg1)) := first_v12 (W0 m ρ c)
theorem b1_cst_3 : W1 m ρ c (Proc.devRef .tc main_cst_3) = val_main_cst_3 (F := Ideal) := first_cst_3 (W0 m ρ c)
theorem b1_arg0 : W1 m ρ c (Proc.devRef .tc main_arg0) = (m ((c : Thread nD τ).loc main_arg0)) := first_keeps_arg0 (W0 m ρ c)
theorem b1_arg2 : W1 m ρ c (Proc.devRef .tc main_arg2) = (m ((c : Thread nD τ).loc main_arg2)) := first_keeps_arg2 (W0 m ρ c)
theorem b1_arg3 : W1 m ρ c (Proc.devRef .tc main_arg3) = (m ((c : Thread nD τ).loc main_arg3)) := first_keeps_arg3 (W0 m ρ c)
theorem b1_arg4 : W1 m ρ c (Proc.devRef .tc main_arg4) = (m ((c : Thread nD τ).loc main_arg4)) := first_keeps_arg4 (W0 m ρ c)
theorem b1_arg5 : W1 m ρ c (Proc.devRef .tc main_arg5) = (m ((c : Thread nD τ).loc main_arg5)) := first_keeps_arg5 (W0 m ρ c)
theorem b1_arg6 : W1 m ρ c (Proc.devRef .tc main_arg6) = (m ((c : Thread nD τ).loc main_arg6)) := first_keeps_arg6 (W0 m ρ c)
theorem b1_arg7 : W1 m ρ c (Proc.devRef .tc main_arg7) = (m ((c : Thread nD τ).loc main_arg7)) := first_keeps_arg7 (W0 m ρ c)

/-! ## After the outlined selection -/

theorem b2_v13 : W2 m ρ c (Proc.devRef .tc main_v13) = val_main_v13 (F := Ideal) (m ((c : Thread nD τ).loc main_arg1)) :=
  where_v13 (W1 m ρ c) (m ((c : Thread nD τ).loc main_arg1)) (b1_v9 m ρ c) (b1_v12 m ρ c) (b1_cst_3 m ρ c)
theorem b2_v1 : W2 m ρ c (Proc.devRef .tc main_v1) = val_main_v1 (F := Ideal) (m ((c : Thread nD τ).loc main_arg1)) :=
  (where_keeps_v1 (W1 m ρ c)).trans (b1_v1 m ρ c)
theorem b2_v3 : W2 m ρ c (Proc.devRef .tc main_v3) = val_main_v3 (F := Ideal) (m ((c : Thread nD τ).loc main_arg1)) :=
  (where_keeps_v3 (W1 m ρ c)).trans (b1_v3 m ρ c)
theorem b2_arg0 : W2 m ρ c (Proc.devRef .tc main_arg0) = (m ((c : Thread nD τ).loc main_arg0)) :=
  (where_keeps_arg0 (W1 m ρ c)).trans (b1_arg0 m ρ c)
theorem b2_arg2 : W2 m ρ c (Proc.devRef .tc main_arg2) = (m ((c : Thread nD τ).loc main_arg2)) :=
  (where_keeps_arg2 (W1 m ρ c)).trans (b1_arg2 m ρ c)
theorem b2_arg3 : W2 m ρ c (Proc.devRef .tc main_arg3) = (m ((c : Thread nD τ).loc main_arg3)) :=
  (where_keeps_arg3 (W1 m ρ c)).trans (b1_arg3 m ρ c)
theorem b2_arg4 : W2 m ρ c (Proc.devRef .tc main_arg4) = (m ((c : Thread nD τ).loc main_arg4)) :=
  (where_keeps_arg4 (W1 m ρ c)).trans (b1_arg4 m ρ c)
theorem b2_arg5 : W2 m ρ c (Proc.devRef .tc main_arg5) = (m ((c : Thread nD τ).loc main_arg5)) :=
  (where_keeps_arg5 (W1 m ρ c)).trans (b1_arg5 m ρ c)
theorem b2_arg6 : W2 m ρ c (Proc.devRef .tc main_arg6) = (m ((c : Thread nD τ).loc main_arg6)) :=
  (where_keeps_arg6 (W1 m ρ c)).trans (b1_arg6 m ρ c)
theorem b2_arg7 : W2 m ρ c (Proc.devRef .tc main_arg7) = (m ((c : Thread nD τ).loc main_arg7)) :=
  (where_keeps_arg7 (W1 m ρ c)).trans (b1_arg7 m ρ c)

/-! ## At region 0's entry -/

theorem b3_v28 : W3 m ρ c (Proc.devRef .tc main_v28) = val_main_v28 (F := Ideal) (m ((c : Thread nD τ).loc main_arg1)) :=
  third_v28 (W2 m ρ c) (m ((c : Thread nD τ).loc main_arg1)) (b2_v13 m ρ c) (b2_v1 m ρ c) (b2_v3 m ρ c)
theorem b3_v29 : (W3 m ρ c (Proc.devRef .tc main_v29) : S8x16.Idx → EReal) = ((m ((c : Thread nD τ).loc main_arg2)) : S8x16.Idx → EReal) :=
  (third_v29 (W2 m ρ c)).trans (b2_arg2 m ρ c)
theorem b3_v30 : (W3 m ρ c (Proc.devRef .tc main_v30) : S8x16.Idx → EReal) = ((m ((c : Thread nD τ).loc main_arg3)) : S8x16.Idx → EReal) :=
  (third_v30 (W2 m ρ c)).trans (b2_arg3 m ρ c)
theorem b3_v1 : W3 m ρ c (Proc.devRef .tc main_v1) = val_main_v1 (F := Ideal) (m ((c : Thread nD τ).loc main_arg1)) :=
  (third_keeps_v1 (W2 m ρ c)).trans (b2_v1 m ρ c)
theorem b3_v3 : W3 m ρ c (Proc.devRef .tc main_v3) = val_main_v3 (F := Ideal) (m ((c : Thread nD τ).loc main_arg1)) :=
  (third_keeps_v3 (W2 m ρ c)).trans (b2_v3 m ρ c)
theorem b3_arg0 : W3 m ρ c (Proc.devRef .tc main_arg0) = (m ((c : Thread nD τ).loc main_arg0)) :=
  (third_keeps_arg0 (W2 m ρ c)).trans (b2_arg0 m ρ c)
theorem b3_arg4 : W3 m ρ c (Proc.devRef .tc main_arg4) = (m ((c : Thread nD τ).loc main_arg4)) :=
  (third_keeps_arg4 (W2 m ρ c)).trans (b2_arg4 m ρ c)
theorem b3_arg5 : W3 m ρ c (Proc.devRef .tc main_arg5) = (m ((c : Thread nD τ).loc main_arg5)) :=
  (third_keeps_arg5 (W2 m ρ c)).trans (b2_arg5 m ρ c)
theorem b3_arg6 : W3 m ρ c (Proc.devRef .tc main_arg6) = (m ((c : Thread nD τ).loc main_arg6)) :=
  (third_keeps_arg6 (W2 m ρ c)).trans (b2_arg6 m ρ c)
theorem b3_arg7 : W3 m ρ c (Proc.devRef .tc main_arg7) = (m ((c : Thread nD τ).loc main_arg7)) :=
  (third_keeps_arg7 (W2 m ρ c)).trans (b2_arg7 m ρ c)

/-! ## At region 0's exit: the features times the first layer's two matrices -/

theorem b4_v31_0 : W4 m ρ c (Proc.devRef .tc main_v31_0) = val_main_v29 (F := Ideal) (m ((c : Thread nD τ).loc main_arg0)) (m ((c : Thread nD τ).loc main_arg2)) := by
  refine (W4_arr m ρ c 3).trans ((Project0.final_a (V3 m ρ) c).trans ?_)
  have e0 : V3 m ρ c main_arg0 = (m ((c : Thread nD τ).loc main_arg0)) := b3_arg0 m ρ c
  have e1 : (V3 m ρ c main_v29 : S8x16.Idx → EReal) = (m ((c : Thread nD τ).loc main_arg2)) := b3_v29 m ρ c
  rw [e0, e1]
  exact Cert.ReferenceIdeal.Stages.proj_v29 (m ((c : Thread nD τ).loc main_arg0)) (m ((c : Thread nD τ).loc main_arg2))
theorem b4_v31_1 : W4 m ρ c (Proc.devRef .tc main_v31_1) = val_main_v43 (F := Ideal) (m ((c : Thread nD τ).loc main_arg0)) (m ((c : Thread nD τ).loc main_arg3)) := by
  refine (W4_arr m ρ c 4).trans ((Project0.final_b (V3 m ρ) c).trans ?_)
  have e0 : V3 m ρ c main_arg0 = (m ((c : Thread nD τ).loc main_arg0)) := b3_arg0 m ρ c
  have e1 : (V3 m ρ c main_v30 : S8x16.Idx → EReal) = (m ((c : Thread nD τ).loc main_arg3)) := b3_v30 m ρ c
  rw [e0, e1]
  exact Cert.ReferenceIdeal.Stages.proj_v43 (m ((c : Thread nD τ).loc main_arg0)) (m ((c : Thread nD τ).loc main_arg3))
theorem b4_v1 : W4 m ρ c (Proc.devRef .tc main_v1) = val_main_v1 (F := Ideal) (m ((c : Thread nD τ).loc main_arg1)) :=
  (W4_of_ne m ρ c main_v1 (by decide)).trans (b3_v1 m ρ c)
theorem b4_v3 : W4 m ρ c (Proc.devRef .tc main_v3) = val_main_v3 (F := Ideal) (m ((c : Thread nD τ).loc main_arg1)) :=
  (W4_of_ne m ρ c main_v3 (by decide)).trans (b3_v3 m ρ c)
theorem b4_v28 : W4 m ρ c (Proc.devRef .tc main_v28) = val_main_v28 (F := Ideal) (m ((c : Thread nD τ).loc main_arg1)) :=
  (W4_of_ne m ρ c main_v28 (by decide)).trans (b3_v28 m ρ c)
theorem b4_arg4 : W4 m ρ c (Proc.devRef .tc main_arg4) = (m ((c : Thread nD τ).loc main_arg4)) :=
  (W4_of_ne m ρ c main_arg4 (by decide)).trans (b3_arg4 m ρ c)
theorem b4_arg5 : W4 m ρ c (Proc.devRef .tc main_arg5) = (m ((c : Thread nD τ).loc main_arg5)) :=
  (W4_of_ne m ρ c main_arg5 (by decide)).trans (b3_arg5 m ρ c)
theorem b4_arg6 : W4 m ρ c (Proc.devRef .tc main_arg6) = (m ((c : Thread nD τ).loc main_arg6)) :=
  (W4_of_ne m ρ c main_arg6 (by decide)).trans (b3_arg6 m ρ c)
theorem b4_arg7 : W4 m ρ c (Proc.devRef .tc main_arg7) = (m ((c : Thread nD τ).loc main_arg7)) :=
  (W4_of_ne m ρ c main_arg7 (by decide)).trans (b3_arg7 m ρ c)

/-! ## At region 1's entry: layer 1's aggregated messages -/

theorem b5_v44 : W5 m ρ c (Proc.devRef .tc main_v44) = val_main_v42 (F := Ideal) (m ((c : Thread nD τ).loc main_arg0)) (m ((c : Thread nD τ).loc main_arg1)) (m ((c : Thread nD τ).loc main_arg2)) :=
  agg1_v44 (W4 m ρ c) (m ((c : Thread nD τ).loc main_arg0)) (m ((c : Thread nD τ).loc main_arg1)) (m ((c : Thread nD τ).loc main_arg2)) (b4_v31_0 m ρ c) (b4_v1 m ρ c) (b4_v3 m ρ c) (b4_v28 m ρ c)
theorem b5_v31_1 : W5 m ρ c (Proc.devRef .tc main_v31_1) = val_main_v43 (F := Ideal) (m ((c : Thread nD τ).loc main_arg0)) (m ((c : Thread nD τ).loc main_arg3)) :=
  (agg1_keeps_v31_1 (W4 m ρ c)).trans (b4_v31_1 m ρ c)
theorem b5_arg4 : W5 m ρ c (Proc.devRef .tc main_arg4) = (m ((c : Thread nD τ).loc main_arg4)) :=
  (agg1_keeps_arg4 (W4 m ρ c)).trans (b4_arg4 m ρ c)
theorem b5_v1 : W5 m ρ c (Proc.devRef .tc main_v1) = val_main_v1 (F := Ideal) (m ((c : Thread nD τ).loc main_arg1)) :=
  (agg1_keeps_v1 (W4 m ρ c)).trans (b4_v1 m ρ c)
theorem b5_v3 : W5 m ρ c (Proc.devRef .tc main_v3) = val_main_v3 (F := Ideal) (m ((c : Thread nD τ).loc main_arg1)) :=
  (agg1_keeps_v3 (W4 m ρ c)).trans (b4_v3 m ρ c)
theorem b5_v28 : W5 m ρ c (Proc.devRef .tc main_v28) = val_main_v28 (F := Ideal) (m ((c : Thread nD τ).loc main_arg1)) :=
  (agg1_keeps_v28 (W4 m ρ c)).trans (b4_v28 m ρ c)
theorem b5_arg5 : W5 m ρ c (Proc.devRef .tc main_arg5) = (m ((c : Thread nD τ).loc main_arg5)) :=
  (agg1_keeps_arg5 (W4 m ρ c)).trans (b4_arg5 m ρ c)
theorem b5_arg6 : W5 m ρ c (Proc.devRef .tc main_arg6) = (m ((c : Thread nD τ).loc main_arg6)) :=
  (agg1_keeps_arg6 (W4 m ρ c)).trans (b4_arg6 m ρ c)
theorem b5_arg7 : W5 m ρ c (Proc.devRef .tc main_arg7) = (m ((c : Thread nD τ).loc main_arg7)) :=
  (agg1_keeps_arg7 (W4 m ρ c)).trans (b4_arg7 m ρ c)

/-! ## At region 1's exit: layer 1's output -/

theorem b6_v45 : W6 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Combine1.final (V5 m ρ) c).trans ?_)
  have e0 : V5 m ρ c main_v44 = val_main_v42 (F := Ideal) (m ((c : Thread nD τ).loc main_arg0)) (m ((c : Thread nD τ).loc main_arg1)) (m ((c : Thread nD τ).loc main_arg2)) := b5_v44 m ρ c
  have e1 : V5 m ρ c main_v31_1 = val_main_v43 (F := Ideal) (m ((c : Thread nD τ).loc main_arg0)) (m ((c : Thread nD τ).loc main_arg3)) := b5_v31_1 m ρ c
  have e2 : V5 m ρ c main_arg4 = (m ((c : Thread nD τ).loc main_arg4)) := b5_arg4 m ρ c
  rw [e0, e1, e2]
  exact Cert.ReferenceIdeal.Stages.epi_v48 (m ((c : Thread nD τ).loc main_arg0)) (m ((c : Thread nD τ).loc main_arg1)) (m ((c : Thread nD τ).loc main_arg2)) (m ((c : Thread nD τ).loc main_arg3)) (m ((c : Thread nD τ).loc main_arg4))
theorem b6_v1 : W6 m ρ c (Proc.devRef .tc main_v1) = val_main_v1 (F := Ideal) (m ((c : Thread nD τ).loc main_arg1)) :=
  (W6_of_ne m ρ c main_v1 (by decide)).trans (b5_v1 m ρ c)
theorem b6_v3 : W6 m ρ c (Proc.devRef .tc main_v3) = val_main_v3 (F := Ideal) (m ((c : Thread nD τ).loc main_arg1)) :=
  (W6_of_ne m ρ c main_v3 (by decide)).trans (b5_v3 m ρ c)
theorem b6_v28 : W6 m ρ c (Proc.devRef .tc main_v28) = val_main_v28 (F := Ideal) (m ((c : Thread nD τ).loc main_arg1)) :=
  (W6_of_ne m ρ c main_v28 (by decide)).trans (b5_v28 m ρ c)
theorem b6_arg5 : W6 m ρ c (Proc.devRef .tc main_arg5) = (m ((c : Thread nD τ).loc main_arg5)) :=
  (W6_of_ne m ρ c main_arg5 (by decide)).trans (b5_arg5 m ρ c)
theorem b6_arg6 : W6 m ρ c (Proc.devRef .tc main_arg6) = (m ((c : Thread nD τ).loc main_arg6)) :=
  (W6_of_ne m ρ c main_arg6 (by decide)).trans (b5_arg6 m ρ c)
theorem b6_arg7 : W6 m ρ c (Proc.devRef .tc main_arg7) = (m ((c : Thread nD τ).loc main_arg7)) :=
  (W6_of_ne m ρ c main_arg7 (by decide)).trans (b5_arg7 m ρ c)

/-! ## At region 2's entry: the second layer's matrices -/

theorem b7_v46 : (W7 m ρ c (Proc.devRef .tc main_v46) : S16x16.Idx → EReal) = ((m ((c : Thread nD τ).loc main_arg5)) : S16x16.Idx → EReal) :=
  (fmt_v46 (W6 m ρ c)).trans (b6_arg5 m ρ c)
theorem b7_v47 : (W7 m ρ c (Proc.devRef .tc main_v47) : S16x16.Idx → EReal) = ((m ((c : Thread nD τ).loc main_arg6)) : S16x16.Idx → EReal) :=
  (fmt_v47 (W6 m ρ c)).trans (b6_arg6 m ρ c)
theorem b7_v45 : W7 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (fmt_keeps_v45 (W6 m ρ c)).trans (b6_v45 m ρ c)
theorem b7_v1 : W7 m ρ c (Proc.devRef .tc main_v1) = val_main_v1 (F := Ideal) (m ((c : Thread nD τ).loc main_arg1)) :=
  (fmt_keeps_v1 (W6 m ρ c)).trans (b6_v1 m ρ c)
theorem b7_v3 : W7 m ρ c (Proc.devRef .tc main_v3) = val_main_v3 (F := Ideal) (m ((c : Thread nD τ).loc main_arg1)) :=
  (fmt_keeps_v3 (W6 m ρ c)).trans (b6_v3 m ρ c)
theorem b7_v28 : W7 m ρ c (Proc.devRef .tc main_v28) = val_main_v28 (F := Ideal) (m ((c : Thread nD τ).loc main_arg1)) :=
  (fmt_keeps_v28 (W6 m ρ c)).trans (b6_v28 m ρ c)
theorem b7_arg7 : W7 m ρ c (Proc.devRef .tc main_arg7) = (m ((c : Thread nD τ).loc main_arg7)) :=
  (fmt_keeps_arg7 (W6 m ρ c)).trans (b6_arg7 m ρ c)

/-! ## At region 2's exit: layer 1's output times the second layer's two matrices -/

theorem b8_v48_0 : W8 m ρ c (Proc.devRef .tc main_v48_0) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Project2.final_a (V7 m ρ) c).trans ?_)
  have e0 : V7 m ρ c main_v45 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := b7_v45 m ρ c
  have e1 : (V7 m ρ c main_v46 : S16x16.Idx → EReal) = (m ((c : Thread nD τ).loc main_arg5)) := b7_v46 m ρ c
  rw [e0, e1]
  exact Cert.ReferenceIdeal.Stages.proj_v49 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
theorem b8_v48_1 : W8 m ρ c (Proc.devRef .tc main_v48_1) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (W8_arr m ρ c 4).trans ((Project2.final_b (V7 m ρ) c).trans ?_)
  have e0 : V7 m ρ c main_v45 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := b7_v45 m ρ c
  have e1 : (V7 m ρ c main_v47 : S16x16.Idx → EReal) = (m ((c : Thread nD τ).loc main_arg6)) := b7_v47 m ρ c
  rw [e0, e1]
  exact Cert.ReferenceIdeal.Stages.proj_v63 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
theorem b8_v1 : W8 m ρ c (Proc.devRef .tc main_v1) = val_main_v1 (F := Ideal) (m ((c : Thread nD τ).loc main_arg1)) :=
  (W8_of_ne m ρ c main_v1 (by decide)).trans (b7_v1 m ρ c)
theorem b8_v3 : W8 m ρ c (Proc.devRef .tc main_v3) = val_main_v3 (F := Ideal) (m ((c : Thread nD τ).loc main_arg1)) :=
  (W8_of_ne m ρ c main_v3 (by decide)).trans (b7_v3 m ρ c)
theorem b8_v28 : W8 m ρ c (Proc.devRef .tc main_v28) = val_main_v28 (F := Ideal) (m ((c : Thread nD τ).loc main_arg1)) :=
  (W8_of_ne m ρ c main_v28 (by decide)).trans (b7_v28 m ρ c)
theorem b8_arg7 : W8 m ρ c (Proc.devRef .tc main_arg7) = (m ((c : Thread nD τ).loc main_arg7)) :=
  (W8_of_ne m ρ c main_arg7 (by decide)).trans (b7_arg7 m ρ c)

/-! ## At region 3's entry: layer 2's aggregated messages -/

theorem b9_v61 : W9 m ρ c (Proc.devRef .tc main_v61) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  agg2_v61 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (b8_v48_0 m ρ c) (b8_v1 m ρ c) (b8_v3 m ρ c) (b8_v28 m ρ c)
theorem b9_v48_1 : W9 m ρ c (Proc.devRef .tc main_v48_1) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  (agg2_keeps_v48_1 (W8 m ρ c)).trans (b8_v48_1 m ρ c)
theorem b9_arg7 : W9 m ρ c (Proc.devRef .tc main_arg7) = (m ((c : Thread nD τ).loc main_arg7)) :=
  (agg2_keeps_arg7 (W8 m ρ c)).trans (b8_arg7 m ρ c)

/-! ## At the program's end: the result -/

/-- The kernel's result buffer ends at the reference's last stage of the eight arguments. -/
theorem b10_v62 : W10 m ρ c (Proc.devRef .tc main_v62) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Combine3.final (V9 m ρ) c).trans ?_)
  have e0 : V9 m ρ c main_v61 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := b9_v61 m ρ c
  have e1 : V9 m ρ c main_v48_1 = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := b9_v48_1 m ρ c
  have e2 : V9 m ρ c main_arg7 = (m ((c : Thread nD τ).loc main_arg7)) := b9_arg7 m ρ c
  rw [e0, e1, e2]
  exact Cert.ReferenceIdeal.Stages.epi_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

end Cert.KernelIdeal.Boundaries

end
-- ==== Proof.lean ====
/-
  A two-layer graph convolution (ARMA, one stack, one iteration) against its reference, on the extended reals.

  Both programs compute, for node features `x`, a directed edge list and per-layer matrices `W`, `V` and bias `b`,
      layer (h) = max (A (h W) + h V + b, 0),        result = layer₂ (layer₁ (x)),
  where `A` gathers the projected features along the edges, scales each edge by the inverse square roots of the
  in-degrees of its two ends (zero where the degree is zero) and adds the messages up at the targets. The edge lists, the
  degrees, the weights and the aggregation are the same host operations in both programs. The kernel differs in the
  dense part only: it computes `h W` and `h V` ten row tiles at a time, in a narrower input format that is the identity
  on the extended reals, as products accumulated into zero, and it fuses the two additions and the maximum into one
  body. A tile's row of a product is the whole product's row, and the fused body is the epilogue entry by entry, so
  every buffer of the kernel's run is a stage of the reference's run, the last one the result. No law of arithmetic beyond
  the definition of a matrix product as a sum is used, and the inputs' finiteness is not needed.
-/
import proofs.«176683_j14259291423267_1_alg».proof.Defs
import proofs.«176683_j14259291423267_1_alg».proof.Proof.Gen.Kernel
import proofs.«176683_j14259291423267_1_alg».proof.Proof.Gen.Kernel.Frame
import proofs.«176683_j14259291423267_1_alg».proof.Proof.Gen.KernelIdeal
import proofs.«176683_j14259291423267_1_alg».proof.Proof.Gen.KernelIdeal.Frame
import proofs.«176683_j14259291423267_1_alg».proof.Proof.Gen.ReferenceIdeal
import proofs.«176683_j14259291423267_1_alg».proof.Proof.Gen.Pre_finite_inputs
import proofs.«176683_j14259291423267_1_alg».proof.Proof.RunP
import proofs.«176683_j14259291423267_1_alg».proof.Proof.ReadP
import proofs.«176683_j14259291423267_1_alg».proof.Proof.KernelRun
import proofs.«176683_j14259291423267_1_alg».proof.Proof.Boundaries
import Idealize.ShloMosaic.Adequacy
import Idealize.ShloMosaic.Init

noncomputable section

namespace Cert.KernelIdeal.Result

open Cert.KernelIdeal Idealize.ShloMosaic Idealize.ShloMosaic.TcCoe Idealize.SL.Sem

/-- The idealized kernel's run, read: the result buffer ends at the reference's last stage of the eight arguments, the
    arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62)
          = Cert.ReferenceIdeal.ReadP.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (Cert.KernelIdeal.Boundaries.b10_v62 m ρ c), (h c).2⟩)
    (Cert.KernelIdeal.NamedRun.run (F := Ideal) m ρ)

end Cert.KernelIdeal.Result

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
